-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S8192x4096 .f32) (main_arg2 : FVec F S4096 .f32) (main_arg3 : FVec F S4096x4096 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S8192x4096 : Shape := ⟨2, ![8192, 4096]⟩
abbrev S4096 : Shape := ⟨1, ![4096]⟩
abbrev S4096x4096 : Shape := ⟨2, ![4096, 4096]⟩
abbrev S_ : Shape := ⟨0, ![]⟩
abbrev S1x4096 : Shape := ⟨2, ![1, 4096]⟩
abbrev S256x4096 : Shape := ⟨2, ![256, 4096]⟩
abbrev S4096x1024 : Shape := ⟨2, ![4096, 1024]⟩
abbrev S256x1024 : Shape := ⟨2, ![256, 1024]⟩
abbrev S1x1024 : Shape := ⟨2, ![1, 1024]⟩

abbrev nBuf : Space → Nat
  | .hbm => 13
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S1x4096, .f32⟩
  | .hbm, ⟨10, _⟩ => ⟨S1x4096, .f32⟩
  | .hbm, ⟨11, _⟩ => ⟨S4096x4096, .bf16⟩
  | .hbm, ⟨12, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S4096x1024, .bf16⟩
  | .local _ .vmem, ⟨3, _⟩ => ⟨S4096x1024, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S4096 : S_.BroadcastsInDim S4096 (![] : Fin 0 → Fin S4096.rank)
  shapeCasts_S4096_S1x4096 : S4096.ShapeCasts S1x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x4096.size a
  hwx0_2 : ∀ i : grid0.Coords, EltTy.bits .f32 = 32 ∨ (Rect.block (s := S8192x4096) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x4096.size a
  hwx0_5 : ∀ i : grid0.Coords, EltTy.bits .f32 = 32 ∨ (Rect.block (s := S8192x4096) S256x1024.size (cc0_transform_5 i) (hinb0_5 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S8192x4096, .f32⟩
  | .hbm, ⟨22, _⟩ => ⟨S1x4096, .f32⟩
  | .hbm, ⟨23, _⟩ => ⟨S8192x4096, .f32⟩
  | .hbm, ⟨24, _⟩ => ⟨S8192x4096, .f32⟩
  | .hbm, ⟨25, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S_S4096 : S_.BroadcastsInDim S4096 (![] : Fin 0 → Fin S4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LtcSpec.lean ====
/-
  The liquid-time-constant update, as one function of the five argument arrays over the extended reals.

  For a batch row b and a unit u,
      gate(b, u)  = logistic( (sum over k of inputs[b, k] * sensory_w[k, u]) + sensory_sigma[u] ),
      decay(u)    = exp( c / tau[u] )            (c the binary value of the literal -0.1),
      result[b,u] = gate(b, u) + (states[b, u] - gate(b, u)) * decay(u).
  The logistic of an extended real z is 1 / (1 + exp(-z)), with the conventions of the quotient and the
  exponential at the infinities; nothing here needs a finite argument.
-/
import Idealize.ShloMosaic.Lib.ValueIdx
import Idealize.ShloMosaic.PureOps.Ideal.Laws

noncomputable section

namespace Cert.Ltc

open Idealize.ShloMosaic Idealize.ShloMosaic.ValueIdx
open scoped BigOperators

/-- The convex-looking blend of a state `s` towards the gate `logistic z` with weight `d` on the state's side:
    `logistic z + (s - logistic z) * d`. -/
def blend (z s d : EReal) : EReal := Ideal.logistic z + (s - Ideal.logistic z) * d

/-- The gate's argument at row `b`, unit `u`: row `b` of the inputs against column `u` of the weights, plus the bias. -/
def logit (x : FVec Ideal ⟨2, ![8192, 4096]⟩ .f32) (w : FVec Ideal ⟨2, ![4096, 4096]⟩ .f32) (σ : FVec Ideal ⟨1, ![4096]⟩ .f32)
    (b : Fin 8192) (u : Fin 4096) : EReal :=
  (∑ k : Fin 4096, x (ix2 b k) * w (ix2 k u)) + σ (ix1 u)

/-- The decay factor of unit `u`: the exponential of the literal over the unit's time constant. -/
def decay (τ : FVec Ideal ⟨1, ![4096]⟩ .f32) (u : Fin 4096) : EReal :=
  Ideal.exp (Ideal.div (Ideal.ofBits .f32 0xBDCCCCCD#32) (τ (ix1 u)))

/-- The new states, index by index. -/
def newStates (x s : FVec Ideal ⟨2, ![8192, 4096]⟩ .f32) (τ : FVec Ideal ⟨1, ![4096]⟩ .f32)
    (w : FVec Ideal ⟨2, ![4096, 4096]⟩ .f32) (σ : FVec Ideal ⟨1, ![4096]⟩ .f32) : FVec Ideal ⟨2, ![8192, 4096]⟩ .f32 :=
  fun i => blend (logit x w σ (i 0) (i 1)) (s i) (decay τ (i 1))

/-- The binary word of the float literal 1.0 is the real number one. -/
theorem ofBits_one : Ideal.ofBits .f32 0x3F800000#32 = 1 := by
  simp [Ideal.ofBits, Ideal.ieee, -EReal.coe_mul]; norm_num

/-- The quotient spelling of the logistic: `1 / (1 + exp (-z))` with the literal one. -/
theorem div_one_add_exp_neg (z : EReal) :
    Ideal.div (Ideal.ofBits .f32 0x3F800000#32) (Ideal.ofBits .f32 0x3F800000#32 + Ideal.exp (-z)) = Ideal.logistic z := by
  rw [ofBits_one]; rfl

end Cert.Ltc

end
-- ==== Proof.LtcReference.lean ====
/-
  The reference program computes the liquid-time-constant update: its last stage, read at an index through its
  operations one at a time, is the gate (the quotient spelling of the logistic of the matrix product plus the bias)
  blended with the state by the decay factor.
-/
import proofs.«156441_j16544214024864_2_alg».proof.Proof.Gen.ReferenceIdeal.Read
import proofs.«156441_j16544214024864_2_alg».proof.Proof.LtcSpec

noncomputable section

namespace Cert.Ltc.Reference

open Cert.ReferenceIdeal Cert.ReferenceIdeal.Read Idealize.ShloMosaic Idealize.ShloMosaic.ValueIdx Cert.Ltc
open scoped BigOperators

/-- The product reads row `i 0` of its left operand … -/
theorem lidx_eq (i : S8192x4096.Idx) (k : Fin 4096) : lidx_main_v0 i k = ix2 (i 0) k :=
  funext fun a => Fin.ext (by match a with | ⟨0, _⟩ => rfl | ⟨1, _⟩ => rfl)

/-- … and column `i 1` of its right operand. -/
theorem ridx_eq (i : S8192x4096.Idx) (k : Fin 4096) : ridx_main_v0 i k = ix2 k (i 1) :=
  funext fun a => Fin.ext (by match a with | ⟨0, _⟩ => rfl | ⟨1, _⟩ => rfl)

/-- The bias, broadcast twice, is read at the unit `i 1`. -/
theorem bias_idx_eq (i : S8192x4096.Idx) : idx_main_v1 (idx_main_v2 i) = ix1 (i 1) :=
  funext fun a => Fin.ext (by match a with | ⟨0, _⟩ => rfl)

/-- The decay vector, broadcast twice, is read at the unit `i 1`. -/
theorem decay_idx_eq (i : S8192x4096.Idx) : idx_main_v14 (idx_main_v15 i) = ix1 (i 1) :=
  funext fun a => Fin.ext (by match a with | ⟨0, _⟩ => rfl)

/-- The reference's result is the update of its five arguments. -/
theorem stage_eq (x0 x1 : FVec Ideal S8192x4096 .f32) (x2 : FVec Ideal S4096 .f32) (x3 : FVec Ideal S4096x4096 .f32)
    (x4 : FVec Ideal S4096 .f32) :
    val_main_v17 (F := Ideal) x0 x1 x2 x3 x4 = newStates x0 x1 x2 x3 x4 := by
  funext i
  rw [val_main_v17_apply, val_main_v16_apply, val_main_v13_apply, val_main_v15_apply, val_main_v14_apply, val_main_v12_apply,
    val_main_v11_apply, val_main_v10_apply, val_main_cst_1_apply, val_main_v9_apply, val_main_v8_apply, val_main_cst_0_apply,
    val_main_v7_apply, val_main_v6_apply, val_main_cst_apply, val_main_v5_apply, val_main_v4_apply, val_main_v3_apply,
    val_main_v0_apply, val_main_v2_apply, val_main_v1_apply]
  simp only [lidx_eq, ridx_eq, bias_idx_eq, decay_idx_eq, Ideal.ofBits_def, Ideal.addf_def, Ideal.subf_def, Ideal.mulf_def,
    Ideal.hostDivf_def, Ideal.hostUnary_exp_def, Ideal.hostNegf_def, Ideal.negf_def, div_one_add_exp_neg]
  rfl

end Cert.Ltc.Reference

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.LtcPayload.lean ====
/-
  What the kernel body computes from its five loaded blocks, at row `p` and column `q` of the output block: the
  blend of the state entry with the logistic of (row `p` of the input block against column `q` of the weight block,
  plus the bias entry of column `q`), weighted by the decay entry of column `q`. The change of float format of the
  inputs is the identity over the extended reals; the product into the zero accumulator is the plain sum over the
  shared axis; the one-row bias and decay blocks are repeated down the rows.
-/
import proofs.«156441_j16544214024864_2_alg».proof.Proof.Gen.KernelIdeal.Skeleton
import proofs.«156441_j16544214024864_2_alg».proof.Proof.LtcSpec
import proofs.«156441_j16544214024864_2_alg».proof.Proof.LibPlainMatmul
import Idealize.ShloMosaic.Lib.ValueLayout
import Idealize.ShloMosaic.Lib.Pipeline.Value

noncomputable section

namespace Cert.Ltc.Payload

open Cert.KernelIdeal Cert.KernelIdeal.Gen Idealize.ShloMosaic Idealize.ShloMosaic.ValueIdx Cert.Ltc
open scoped BigOperators

/-- The product of the input block (its format changed, which is the identity here) and the weight block, into the
    zero accumulator, at `(p, q)`: the sum over the shared axis. -/
theorem product_apply (v0 : FVec Ideal S256x4096 .f32) (v2 : FVec Ideal S4096x1024 .bf16) (p : Fin 256) (q : Fin 1024) :
    matmul (F := Ideal) dot_S256x4096_S4096x1024_S256x1024_1_0_0_1_n_n none (truncf .bf16 v0 bitsLt_bf16_f32)
        (shapeCast S4096x1024 v2 shapeCasts_S4096x1024_S4096x1024) (constant S256x1024 .f32 0x00000000#32) (ix2 p q)
      = ∑ k : Fin 4096, v0 (ix2 p k) * v2 (ix2 k q) := by
  rw [shapeCast_self]
  exact Cert.LibPlainMatmul.matmul_zero_plain _ (truncf (F := Ideal) .bf16 v0 bitsLt_bf16_f32) v2 p q

/-- A one-row block repeated down 256 rows reads its one row. -/
theorem row_apply (v : Vec Ideal S1x1024 .f32) (p : Fin 256) (q : Fin 1024) :
    broadcastTo S256x1024 (shapeCast S1x1024 v shapeCasts_S1x1024_S1x1024) broadcasts_S1x1024_S256x1024 (ix2 p q)
      = v (ix2 (0 : Fin 1) q) := by
  rw [shapeCast_self]
  exact broadcastTo_1b_ab_apply v broadcasts_S1x1024_S256x1024 p q

/-- The body's stored value at `(p, q)`. -/
theorem pay_apply (v0 : Vec Ideal S256x4096 .f32) (v2 : Vec Ideal S4096x1024 .bf16) (v5 : Vec Ideal S1x1024 .f32)
    (v10 : Vec Ideal S256x1024 .f32) (v11 : Vec Ideal S1x1024 .f32) (p : Fin 256) (q : Fin 1024) :
    k0_pay1 (F := Ideal) v0 v2 v5 v10 v11 (ix2 p q)
      = blend ((∑ k : Fin 4096, v0 (ix2 p k) * v2 (ix2 k q)) + v5 (ix2 (0 : Fin 1) q)) (v10 (ix2 p q)) (v11 (ix2 (0 : Fin 1) q)) := by
  unfold k0_pay1 blend
  show Ideal.logistic (matmul (F := Ideal) dot_S256x4096_S4096x1024_S256x1024_1_0_0_1_n_n none (truncf .bf16 v0 bitsLt_bf16_f32)
          (shapeCast S4096x1024 v2 shapeCasts_S4096x1024_S4096x1024) (constant S256x1024 .f32 0x00000000#32) (ix2 p q)
        + broadcastTo S256x1024 (shapeCast S1x1024 v5 shapeCasts_S1x1024_S1x1024) broadcasts_S1x1024_S256x1024 (ix2 p q))
      + (v10 (ix2 p q) - Ideal.logistic (matmul (F := Ideal) dot_S256x4096_S4096x1024_S256x1024_1_0_0_1_n_n none (truncf .bf16 v0 bitsLt_bf16_f32)
          (shapeCast S4096x1024 v2 shapeCasts_S4096x1024_S4096x1024) (constant S256x1024 .f32 0x00000000#32) (ix2 p q)
        + broadcastTo S256x1024 (shapeCast S1x1024 v5 shapeCasts_S1x1024_S1x1024) broadcasts_S1x1024_S256x1024 (ix2 p q)))
        * broadcastTo S256x1024 (shapeCast S1x1024 v11 shapeCasts_S1x1024_S1x1024) broadcasts_S1x1024_S256x1024 (ix2 p q) = _
  rw [product_apply, row_apply, row_apply]

/-- The same at any index of the output block, its row and column read off the index. -/
theorem pay_at (v0 : Vec Ideal S256x4096 .f32) (v2 : Vec Ideal S4096x1024 .bf16) (v5 : Vec Ideal S1x1024 .f32)
    (v10 : Vec Ideal S256x1024 .f32) (v11 : Vec Ideal S1x1024 .f32) (j : S256x1024.Idx) :
    k0_pay1 (F := Ideal) v0 v2 v5 v10 v11 j
      = blend ((∑ k : Fin 4096, v0 (ix2 (j 0) k) * v2 (ix2 k (j 1))) + v5 (ix2 (0 : Fin 1) (j 1))) (v10 j) (v11 (ix2 (0 : Fin 1) (j 1))) := by
  obtain ⟨p, q, rfl⟩ : ∃ (p : Fin 256) (q : Fin 1024), j = ix2 p q := ⟨j 0, j 1, eq_ix2 j⟩
  exact pay_apply v0 v2 v5 v10 v11 p q

end Cert.Ltc.Payload

end
-- ==== Proof.LtcEntry.lean ====
/-
  The arrays the kernel's region finds when it is entered, after the host operations that precede it: the inputs and
  the states are the arguments untouched; the weights are the weight argument with its float format changed (the
  identity over the extended reals); the bias row is the bias argument re-laid as one row; the decay row is the
  exponential of the literal over the time constants, re-laid as one row. Hence the update written over those five
  arrays — the form in which the kernel's blocks read it — is the update of the five arguments.
-/
import proofs.«156441_j16544214024864_2_alg».proof.Proof.Gen.KernelIdeal.Frame
import proofs.«156441_j16544214024864_2_alg».proof.Proof.LtcSpec
import Idealize.ShloMosaic.Lib.StableHlo.Run
import Idealize.ShloMosaic.Lib.ValueLayout
import Idealize.ShloMosaic.Lib.Pipeline.Value

noncomputable section

namespace Cert.Ltc.Entry

open Cert.KernelIdeal Cert.KernelIdeal.Gen Idealize.ShloMosaic Idealize.ShloMosaic.TcCoe Idealize.SL.Sem
open Idealize.ShloMosaic.ValueIdx Idealize.ShloMosaic.StableHlo Cert.Ltc
open scoped BigOperators

variable (m : (ℓ : Loc nD τ sig) → Buf (Elt Ideal) ℓ)

/-- The update over the arrays the region reads: inputs `X`, weights `W`, states `S`, the bias row `B` and the decay
    row `D`. At `i` it blends `S i` with the logistic of row `i 0` of `X` against column `i 1` of `W` plus `B` at column
    `i 1`, by `D` at column `i 1`. -/
def entryUpdate (X : FVec Ideal S8192x4096 .f32) (W : FVec Ideal S4096x4096 .bf16) (S : FVec Ideal S8192x4096 .f32)
    (B D : FVec Ideal S1x4096 .f32) : FVec Ideal S8192x4096 .f32 :=
  fun i => blend ((∑ k : Fin 4096, X (ix2 (i 0) k) * W (ix2 k (i 1))) + B (ix2 (0 : Fin 1) (i 1))) (S i) (D (ix2 (0 : Fin 1) (i 1)))

/-- The weights the region finds: the weight argument, its format changed. -/
theorem entry_weights (c : Dev nD) :
    (V m c main_v5 : S4096x4096.Idx → EReal) = truncf (F := Ideal) .bf16 (m ((c : Thread nD τ).loc main_arg3)) bitsLt_bf16_f32 := by
  dsimp only [Gen.V, Gen.hostOps0]; after_results

/-- The bias row the region finds: the bias argument as one row. -/
theorem entry_bias (c : Dev nD) :
    (V m c main_v4 : S1x4096.Idx → EReal) = shapeCast S1x4096 (m ((c : Thread nD τ).loc main_arg4)) shapeCasts_S4096_S1x4096 := by
  dsimp only [Gen.V, Gen.hostOps0]; after_results; rfl

/-- The decay row the region finds: the exponential of the literal over the time constants, as one row. -/
theorem entry_decay (c : Dev nD) :
    (V m c main_v3 : S1x4096.Idx → EReal) = shapeCast S1x4096 (Host.exp (F := Ideal) (Host.divf (broadcastInDim S4096 ![] bcast_S_S4096
      (constant (F := Ideal) S_ .f32 0xBDCCCCCD#32)) (m ((c : Thread nD τ).loc main_arg2)))) shapeCasts_S4096_S1x4096 := by
  dsimp only [Gen.V, Gen.hostOps0]; after_results; rfl

/-- The bias row at column `u` is the bias of unit `u`. -/
theorem bias_apply (c : Dev nD) (u : Fin 4096) :
    (V m c main_v4 : S1x4096.Idx → EReal) (ix2 (0 : Fin 1) u) = m ((c : Thread nD τ).loc main_arg4) (ix1 u) := by
  rw [entry_bias]
  exact shapeCast_a_1a_apply _ shapeCasts_S4096_S1x4096 (0 : Fin 1) u

/-- The decay row at column `u` is the decay factor of unit `u`. -/
theorem decay_apply (c : Dev nD) (u : Fin 4096) :
    (V m c main_v3 : S1x4096.Idx → EReal) (ix2 (0 : Fin 1) u) = decay (m ((c : Thread nD τ).loc main_arg2)) u := by
  rw [entry_decay]
  refine (shapeCast_a_1a_apply _ shapeCasts_S4096_S1x4096 (0 : Fin 1) u).trans ?_
  rfl

/-- The update over what the region finds is the update of the arguments. -/
theorem entry_update_eq (c : Dev nD) :
    entryUpdate (V m c main_arg0) (V m c main_v5) (V m c main_arg1) (V m c main_v4) (V m c main_v3)
      = newStates (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  unfold entryUpdate newStates logit
  refine congr (congr (congrArg blend (congr (congrArg HAdd.hAdd (Finset.sum_congr rfl fun k _ => ?_)) (bias_apply m c (i 1))))
    (congrFun (V_main_arg1 m c) i)) (decay_apply m c (i 1))
  exact congr (congrArg HMul.hMul (congrFun (V_main_arg0 m c) _)) (congrFun (entry_weights m c) _)

end Cert.Ltc.Entry

end
-- ==== Proof.LtcBlocks.lean ====
/-
  From the kernel's blocks to its whole result array. The grid has 4 × 32 points; at a point the output window's
  block is a 256 × 1024 tile of the result, the input block the same 256 rows of the inputs (all columns), the weight
  block the same 1024 columns of the weights (all rows), the state block the same tile of the states, and the bias
  and decay blocks the same 1024 columns of their one row. So what a point writes back is its tile of the update
  written over the arrays the region finds; the 128 tiles cover the result; and the result array ends as the update
  of the five arguments.
-/
import proofs.«156441_j16544214024864_2_alg».proof.Proof.Gen.KernelIdeal.Value
import proofs.«156441_j16544214024864_2_alg».proof.Proof.LtcPayload
import proofs.«156441_j16544214024864_2_alg».proof.Proof.LtcEntry

set_option maxRecDepth 16384

noncomputable section

namespace Cert.Ltc.Blocks

open Cert.KernelIdeal Cert.KernelIdeal.Gen Idealize.ShloMosaic Idealize.ShloMosaic.TcCoe Idealize.SL.Sem
open Idealize.ShloMosaic.ValueIdx Cert.Ltc Cert.Ltc.Entry
open Idealize.ShloMosaic.Pipeline (Dat)
open scoped BigOperators

variable (m : (ℓ : Loc nD τ sig) → Buf (Elt Ideal) ℓ) (ρ : Dev nD → PrngReg)

/-- Blends of equal arguments are equal. -/
theorem blend_congr {z z' s s' d d' : EReal} (hz : z = z') (hs : s = s') (hd : d = d') : blend z s d = blend z' s' d' := by
  rw [hz, hs, hd]

theorem zero_offsets : (![0, 0] : Fin 2 → Nat) = fun _ => 0 := funext fun a => by fin_cases a <;> rfl

/-- The printed index maps, decided over the 128 grid points: the input block moves with the output tile's rows, the
    weight, bias and decay blocks with its columns, the state block with both; and the tile indices stay in range. -/
theorem index_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = win0_5.index t (1 : Fin 2)
    ∧ win0_2.index t (0 : Fin 2) = win0_5.index t (0 : Fin 2) ∧ win0_2.index t (1 : Fin 2) = win0_5.index t (1 : Fin 2)
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) ≤ 31 ∧ win0_5.index t (1 : Fin 2) ≤ 3 :=
  (by decide +kernel : ∀ t : Fin grid0.N, _)

/-- Every tile of the 32 × 4 tiling is some point's. -/
theorem index_onto : ∀ (q0 : Fin 32) (q1 : Fin 4), ∃ t : Fin cfg0.N, win0_5.index t = ![q0.val, q1.val] :=
  (by decide +kernel : ∀ (q0 : Fin 32) (q1 : Fin 4), ∃ t : Fin grid0.N, win0_5.index t = ![q0.val, q1.val])

set_option maxHeartbeats 1000000 in
/-- What point `t` writes back is tile `t` of the update over the arrays the region finds. -/
theorem flushed_eq (c : Dev nD) (t : Fin cfg0.N) :
    (dats m 0 c).flushed 5 t = ((cfg0.win 5).blk t).view.read (Elt Ideal)
      (entryUpdate (V m c main_arg0) (V m c main_v5) (V m c main_arg1) (V m c main_v4) (V m c main_v3)) := by
  rw [Cert.KernelIdeal.Value.flushed5]
  unfold out0_5
  rw [View.canon_unit_zero zero_offsets]
  simp only [View.ld_unit_zero (S := S256x4096) zero_offsets, View.ld_unit_zero (S := S4096x1024) zero_offsets,
    View.ld_unit_zero (S := S1x1024) zero_offsets, View.ld_unit_zero (S := S256x1024) zero_offsets]
  obtain ⟨e00, e01, e10, e11, e20, e21, e30, e31, e40, e41, -, -⟩ := index_facts t
  funext j
  refine (Payload.pay_at (iblk m c 0 t) (iblk m c 1 t) (iblk m c 3 t) (iblk m c 2 t) (iblk m c 4 t)
    ((cfg0.win 5).xinj (grid0.coords t) j)).trans ?_
  have hj0 : (j 0).val < 256 := (j 0).isLt
  have hj1 : (j 1).val < 1024 := (j 1).isLt
  refine blend_congr (congr (congrArg HAdd.hAdd (Finset.sum_congr rfl fun k _ => congr (congrArg HMul.hMul ?_) ?_)) ?_) ?_ ?_
  · refine congrArg (V m c main_arg0 : S8192x4096.Idx → EReal) (funext fun a => Fin.ext ?_)
    match a with
    | ⟨0, _⟩ => show win0_0.index t (0 : Fin 2) * 256 + 1 * (j 0).val = win0_5.index t (0 : Fin 2) * 256 + 1 * (j 0).val; omega
    | ⟨1, _⟩ => show win0_0.index t (1 : Fin 2) * 4096 + 1 * k.val = k.val; omega
  · refine congrArg (V m c main_v5 : S4096x4096.Idx → EReal) (funext fun a => Fin.ext ?_)
    match a with
    | ⟨0, _⟩ => show win0_1.index t (0 : Fin 2) * 4096 + 1 * k.val = k.val; omega
    | ⟨1, _⟩ => show win0_1.index t (1 : Fin 2) * 1024 + 1 * (j 1).val = win0_5.index t (1 : Fin 2) * 1024 + 1 * (j 1).val; omega
  · refine congrArg (V m c main_v4 : S1x4096.Idx → EReal) (funext fun a => Fin.ext ?_)
    match a with
    | ⟨0, _⟩ => show win0_3.index t (0 : Fin 2) * 1 + 1 * 0 = 0; omega
    | ⟨1, _⟩ => show win0_3.index t (1 : Fin 2) * 1024 + 1 * (j 1).val = win0_5.index t (1 : Fin 2) * 1024 + 1 * (j 1).val; omega
  · refine congrArg (V m c main_arg1 : S8192x4096.Idx → EReal) (funext fun a => Fin.ext ?_)
    match a with
    | ⟨0, _⟩ => show win0_2.index t (0 : Fin 2) * 256 + 1 * (j 0).val = win0_5.index t (0 : Fin 2) * 256 + 1 * (j 0).val; omega
    | ⟨1, _⟩ => show win0_2.index t (1 : Fin 2) * 1024 + 1 * (j 1).val = win0_5.index t (1 : Fin 2) * 1024 + 1 * (j 1).val; omega
  · refine congrArg (V m c main_v3 : S1x4096.Idx → EReal) (funext fun a => Fin.ext ?_)
    match a with
    | ⟨0, _⟩ => show win0_4.index t (0 : Fin 2) * 1 + 1 * 0 = 0; omega
    | ⟨1, _⟩ => show win0_4.index t (1 : Fin 2) * 1024 + 1 * (j 1).val = win0_5.index t (1 : Fin 2) * 1024 + 1 * (j 1).val; omega

/-- An index of the result is in point `t`'s tile iff each coordinate is in the tile's range on its axis. -/
theorem mem_blk (t : Fin cfg0.N) (i : S8192x4096.Idx) :
    i ∈ ((cfg0.win 5).blk t).view.set ↔ ∀ a : Fin 2, win0_5.index t a * S256x1024.size a ≤ (i a).val
      ∧ (i a).val < win0_5.index t a * S256x1024.size a + S256x1024.size a := by
  show i ∈ ((View.whole main_v6).slice (win0_5.rect t)).set ↔ _
  rw [View.set_slice_whole, Rect.mem_set_unit]
  exact Iff.rfl

/-- The tiles cover the result: index `i` lies in the tile of row block `i 0 / 256` and column block `i 1 / 1024`. -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ := index_onto ⟨(i 0).val / 256, by omega⟩ ⟨(i 1).val / 1024, by omega⟩
  have q0 : win0_5.index t (0 : Fin 2) = (i 0).val / 256 := congrFun ht 0
  have q1 : win0_5.index t (1 : Fin 2) = (i 1).val / 1024 := congrFun ht 1
  refine ⟨t, flush0_5 t, ?_⟩
  rw [mem_blk]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

/-- The result array after the run is the update of the five arguments. -/
theorem final (c : Dev nD) :
    (dats m 0 c).arrAt 5 cfg0.N
      = newStates (m ((c : Thread nD τ).loc main_arg0)) (m ((c : Thread nD τ).loc main_arg1)) (m ((c : Thread nD τ).loc main_arg2))
          (m ((c : Thread nD τ).loc main_arg3)) (m ((c : Thread nD τ).loc main_arg4)) :=
  ((dats m 0 c).arrAt_eq_of_cover 5 _ (fun t _ => flushed_eq m c t) cover).trans (entry_update_eq m c)

/-- The kernel's run: the result at the update of the arguments, the arguments unchanged. -/
theorem run : θ_run defs (onTc (τ := τ) (main (F := Ideal))) ⟨m, fun _ => 0, ρ⟩ fun r => ∀ c : Dev nD,
      r.2.mem ((c : Thread nD τ).loc main_v6)
        = newStates (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.Ltc.Blocks

end
-- ==== Proof.lean ====
/-
  The certificate of the liquid-time-constant kernel against its reference, over the extended reals.

  Both programs compute, for a batch row b and a unit u,
      result[b, u] = gate + (states[b, u] - gate) * exp(c / tau[u]),
      gate         = logistic( (sum over k of inputs[b, k] * sensory_w[k, u]) + sensory_sigma[u] ),
  with c the binary value of the literal -0.1. The kernel tiles the result 256 × 1024 over a 4 × 32 grid, forms the
  product of a row block of the inputs with a column block of the weights in one matrix product into a zero
  accumulator (the narrower float format of its operands is the identity here) and applies the logistic as one
  operation; the reference forms one whole product and spells the logistic as 1 / (1 + exp(-z)). Over the extended
  reals the logistic IS that quotient, a tile's product entry is the same sum over the shared axis as the whole
  product's, and the tiles cover the result, so the two results are one function of the arguments, index by index.
  No law used needs a finite argument, so the precondition is never opened.

  The three frames are the generated ones (the reference's is its run with the result dropped); the kernel's
  idealization rewrote nothing, so there is nothing to preserve.
-/
import proofs.«156441_j16544214024864_2_alg».proof.Defs
import proofs.«156441_j16544214024864_2_alg».proof.Proof.Gen.Kernel
import proofs.«156441_j16544214024864_2_alg».proof.Proof.Gen.Kernel.Skeleton
import proofs.«156441_j16544214024864_2_alg».proof.Proof.Gen.Kernel.Launch
import proofs.«156441_j16544214024864_2_alg».proof.Proof.Gen.Kernel.Points
import proofs.«156441_j16544214024864_2_alg».proof.Proof.Gen.Kernel.Frame
import proofs.«156441_j16544214024864_2_alg».proof.Proof.Gen.KernelIdeal
import proofs.«156441_j16544214024864_2_alg».proof.Proof.Gen.KernelIdeal.Skeleton
import proofs.«156441_j16544214024864_2_alg».proof.Proof.Gen.KernelIdeal.Launch
import proofs.«156441_j16544214024864_2_alg».proof.Proof.Gen.KernelIdeal.Points
import proofs.«156441_j16544214024864_2_alg».proof.Proof.Gen.KernelIdeal.Frame
import proofs.«156441_j16544214024864_2_alg».proof.Proof.Gen.ReferenceIdeal
import proofs.«156441_j16544214024864_2_alg».proof.Proof.Gen.Pre_finite_inputs
import proofs.«156441_j16544214024864_2_alg».proof.Proof.Gen.KernelIdeal.Value
import proofs.«156441_j16544214024864_2_alg».proof.Proof.Gen.ReferenceIdeal.Run
import proofs.«156441_j16544214024864_2_alg».proof.Proof.Gen.ReferenceIdeal.Read
import proofs.«156441_j16544214024864_2_alg».proof.Proof.LtcReference
import proofs.«156441_j16544214024864_2_alg».proof.Proof.LtcBlocks
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at the update of its arguments (its tiles, assembled)
    and the reference's at its last stage, which is the same update. -/
theorem algebraic : Cert.algebraic_KernelIdeal_ReferenceIdeal := by
  intro m ρ m' ρ' _ hagree
  refine ⟨_, Cert.Ltc.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.Ltc.Reference.stage_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
